-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64x512x41 : Shape := ⟨3, ![64, 512, 41]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S64x512x41 : S_.BroadcastsInDim S64x512x41 (![] : Fin 0 → Fin S64x512x41.rank)
  reducesTo_S64x512x41_S_d0_1_2 : S64x512x41.ReducesTo [0, 1, 2] S_

variable [Facts]

def fn {F : FTy → Type} [FloatOps F] (main_arg0 : FVec F S64x512 .f32) (main_arg1 : FVec F S64x512x41 .f32) (main_arg2 : IVec S64x512x41 32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x512x41 .f32 := Host.absf main_arg1
  let main_cst_0 : FVec F S_ .f32 := constant S_ .f32 0x7F800000#32
  let main_v5 : FVec F S64x512x41 .f32 := broadcastInDim S64x512x41 ![] bcast_S_S64x512x41 main_cst_0
  let main_v6 : IVec S64x512x41 1 := cmpf .olt main_v4 main_v5
  let main_c_1 : IVec S_ 1 := constantI S_ 1 1#1
  let main_v7 : IVec S_ 1 := (fun x v => Host.reduce IntOp.andi x v reducesTo_S64x512x41_S_d0_1_2 h_S_) main_v6 main_c_1
  let main_v8 : IVec S_ 1 := andi main_v3 main_v7
  main_v8
-- ==== Kernel.lean ====
abbrev S64x512 : Shape := ⟨2, ![64, 512]⟩
abbrev S64x512x41 : Shape := ⟨3, ![64, 512, 41]⟩
abbrev S64x512x1 : Shape := ⟨3, ![64, 512, 1]⟩
abbrev S64x20992 : Shape := ⟨2, ![64, 20992]⟩
abbrev S41 : Shape := ⟨1, ![41]⟩
abbrev S_ : Shape := ⟨0, ![]⟩
abbrev S64x20992x1 : Shape := ⟨3, ![64, 20992, 1]⟩
abbrev S1 : Shape := ⟨1, ![1]⟩
abbrev S1x1x1 : Shape := ⟨3, ![1, 1, 1]⟩
abbrev S64x20992x44 : Shape := ⟨3, ![64, 20992, 44]⟩
abbrev S64x128 : Shape := ⟨2, ![64, 128]⟩
abbrev S64x128x44 : Shape := ⟨3, ![64, 128, 44]⟩
abbrev S64x128x41 : Shape := ⟨3, ![64, 128, 41]⟩
abbrev S64x128x1 : Shape := ⟨3, ![64, 128, 1]⟩

abbrev nBuf : Space → Nat
  | .hbm => 110
  | .vmem => 10
  | .smem => 0
  | _ => 0

abbrev bufTy : (tb : Table) → Fin (tcTables nBuf tb) → BufTy
  | .hbm, ⟨0, _⟩ => ⟨S64x512, .f32⟩
  | .hbm, ⟨1, _⟩ => ⟨S64x512x41, .f32⟩
  | .hbm, ⟨2, _⟩ => ⟨S64x512x41, .i32⟩
  | .hbm, ⟨3, _⟩ => ⟨S64x512x1, .f32⟩
  | .hbm, ⟨4, _⟩ => ⟨S64x512x41, .f32⟩
  | .hbm, ⟨5, _⟩ => ⟨S64x20992, .f32⟩
  | .hbm, ⟨6, _⟩ => ⟨S64x20992, .f32⟩
  | .hbm, ⟨7, _⟩ => ⟨S64x20992, .i32⟩
  | .hbm, ⟨8, _⟩ => ⟨S41, .i32⟩
  | .hbm, ⟨9, _⟩ => ⟨S64x512x41, .i32⟩
  | .hbm, ⟨10, _⟩ => ⟨S64x20992, .i32⟩
  | .hbm, ⟨11, _⟩ => ⟨S_, .i32⟩
  | .hbm, ⟨12, _⟩ => ⟨S64x20992, .i32⟩
  | .hbm, ⟨13, _⟩ => ⟨S64x20992, .i32⟩
  | .hbm, ⟨14, _⟩ => ⟨S64x20992, .i32⟩
  | .hbm, ⟨15, _⟩ => ⟨S64x20992, .i32⟩
  | .hbm, ⟨16, _⟩ => ⟨S64x20992, .i32⟩
  | .hbm, ⟨17, _⟩ => ⟨S_, .i32⟩
  | .hbm, ⟨18, _⟩ => ⟨S64x20992, .i32⟩
  | .hbm, ⟨19, _⟩ => ⟨S64x20992, .i1⟩
  | .hbm, ⟨20, _⟩ => ⟨S_, .i32⟩
  | .hbm, ⟨21, _⟩ => ⟨S64x20992, .i32⟩
  | .hbm, ⟨22, _⟩ => ⟨S64x20992, .i32⟩
  | .hbm, ⟨23, _⟩ => ⟨S64x20992, .i32⟩
  | .hbm, ⟨24, _⟩ => ⟨S64x20992x1, .i32⟩
  | .hbm, ⟨25, _⟩ => ⟨S1, .i32⟩
  | .hbm, ⟨26, _⟩ => ⟨S_, .i32⟩
  | .hbm, ⟨27, _⟩ => ⟨S64x20992x1, .i32⟩
  | .hbm, ⟨28, _⟩ => ⟨S64x20992x1, .i1⟩
  | .hbm, ⟨29, _⟩ => ⟨S1x1x1, .i32⟩
  | .hbm, ⟨30, _⟩ => ⟨S64x20992x1, .i32⟩
  | .hbm, ⟨31, _⟩ => ⟨S64x20992x1, .i1⟩
  | .hbm, ⟨32, _⟩ => ⟨S64x20992x1, .i1⟩
  | .hbm, ⟨33, _⟩ => ⟨S_, .i1⟩
  | .hbm, ⟨34, _⟩ => ⟨S64x20992, .i1⟩
  | .hbm, ⟨35, _⟩ => ⟨S64x20992, .i32⟩
  | .hbm, ⟨36, _⟩ => ⟨S_, .i32⟩
  | .hbm, ⟨37, _⟩ => ⟨S64x20992, .i32⟩
  | .hbm, ⟨38, _⟩ => ⟨S64x20992, .i32⟩
  | .hbm, ⟨39, _⟩ => ⟨S64x20992, .f32⟩
  | .hbm, ⟨40, _⟩ => ⟨S_, .i32⟩
  | .hbm, ⟨41, _⟩ => ⟨S64x20992, .i32⟩
  | .hbm, ⟨42, _⟩ => ⟨S64x20992, .i1⟩
  | .hbm, ⟨43, _⟩ => ⟨S_, .i32⟩
  | .hbm, ⟨44, _⟩ => ⟨S64x20992, .i32⟩
  | .hbm, ⟨45, _⟩ => ⟨S64x20992, .i32⟩
  | .hbm, ⟨46, _⟩ => ⟨S64x20992, .i32⟩
  | .hbm, ⟨47, _⟩ => ⟨S64x20992x1, .i32⟩
  | .hbm, ⟨48, _⟩ => ⟨S1, .i32⟩
  | .hbm, ⟨49, _⟩ => ⟨S_, .i32⟩
  | .hbm, ⟨50, _⟩ => ⟨S64x20992x1, .i32⟩
  | .hbm, ⟨51, _⟩ => ⟨S64x20992x1, .i1⟩
  | .hbm, ⟨52, _⟩ => ⟨S1x1x1, .i32⟩
  | .hbm, ⟨53, _⟩ => ⟨S64x20992x1, .i32⟩
  | .hbm, ⟨54, _⟩ => ⟨S64x20992x1, .i1⟩
  | .hbm, ⟨55, _⟩ => ⟨S64x20992x1, .i1⟩
  | .hbm, ⟨56, _⟩ => ⟨S_, .i1⟩
  | .hbm, ⟨57, _⟩ => ⟨S64x20992, .i1⟩
  | .hbm, ⟨58, _⟩ => ⟨S64x20992, .f32⟩
  | .hbm, ⟨59, _⟩ => ⟨S_, .f32⟩
  | .hbm, ⟨60, _⟩ => ⟨S64x20992, .f32⟩
  | .hbm, ⟨61, _⟩ => ⟨S64x20992, .f32⟩
  | .hbm, ⟨62, _⟩ => ⟨S64x20992, .f32⟩
  | .hbm, ⟨63, _⟩ => ⟨S_, .i32⟩
  | .hbm, ⟨64, _⟩ => ⟨S64x20992, .i32⟩
  | .hbm, ⟨65, _⟩ => ⟨S64x20992, .i1⟩
  | .hbm, ⟨66, _⟩ => ⟨S_, .i32⟩
  | .hbm, ⟨67, _⟩ => ⟨S64x20992, .i32⟩
  | .hbm, ⟨68, _⟩ => ⟨S64x20992, .i32⟩
  | .hbm, ⟨69, _⟩ => ⟨S64x20992, .i32⟩
  | .hbm, ⟨70, _⟩ => ⟨S64x20992x1, .i32⟩
  | .hbm, ⟨71, _⟩ => ⟨S1, .i32⟩
  | .hbm, ⟨72, _⟩ => ⟨S_, .i32⟩
  | .hbm, ⟨73, _⟩ => ⟨S64x20992x1, .i32⟩
  | .hbm, ⟨74, _⟩ => ⟨S64x20992x1, .i1⟩
  | .hbm, ⟨75, _⟩ => ⟨S1x1x1, .i32⟩
  | .hbm, ⟨76, _⟩ => ⟨S64x20992x1, .i32⟩
  | .hbm, ⟨77, _⟩ => ⟨S64x20992x1, .i1⟩
  | .hbm, ⟨78, _⟩ => ⟨S64x20992x1, .i1⟩
  | .hbm, ⟨79, _⟩ => ⟨S_, .i1⟩
  | .hbm, ⟨80, _⟩ => ⟨S64x20992, .i1⟩
  | .hbm, ⟨81, _⟩ => ⟨S64x20992, .f32⟩
  | .hbm, ⟨82, _⟩ => ⟨S_, .f32⟩
  | .hbm, ⟨83, _⟩ => ⟨S64x20992, .f32⟩
  | .hbm, ⟨84, _⟩ => ⟨S64x20992, .f32⟩
  | .hbm, ⟨85, _⟩ => ⟨S64x20992, .f32⟩
  | .hbm, ⟨86, _⟩ => ⟨S_, .i32⟩
  | .hbm, ⟨87, _⟩ => ⟨S64x20992, .i32⟩
  | .hbm, ⟨88, _⟩ => ⟨S64x20992, .i1⟩
  | .hbm, ⟨89, _⟩ => ⟨S_, .i32⟩
  | .hbm, ⟨90, _⟩ => ⟨S64x20992, .i32⟩
  | .hbm, ⟨91, _⟩ => ⟨S64x20992, .i32⟩
  | .hbm, ⟨92, _⟩ => ⟨S64x20992, .i32⟩
  | .hbm, ⟨93, _⟩ => ⟨S64x20992x1, .i32⟩
  | .hbm, ⟨94, _⟩ => ⟨S1, .i32⟩
  | .hbm, ⟨95, _⟩ => ⟨S_, .i32⟩
  | .hbm, ⟨96, _⟩ => ⟨S64x20992x1, .i32⟩
  | .hbm, ⟨97, _⟩ => ⟨S64x20992x1, .i1⟩
  | .hbm, ⟨98, _⟩ => ⟨S1x1x1, .i32⟩
  | .hbm, ⟨99, _⟩ => ⟨S64x20992x1, .i32⟩
  | .hbm, ⟨100, _⟩ => ⟨S64x20992x1, .i1⟩
  | .hbm, ⟨101, _⟩ => ⟨S64x20992x1, .i1⟩
  | .hbm, ⟨102, _⟩ => ⟨S_, .i1⟩
  | .hbm, ⟨103, _⟩ => ⟨S64x20992, .i1⟩
  | .hbm, ⟨104, _⟩ => ⟨S64x20992, .i32⟩
  | .hbm, ⟨105, _⟩ => ⟨S_, .i32⟩
  | .hbm, ⟨106, _⟩ => ⟨S64x20992, .i32⟩
  | .hbm, ⟨107, _⟩ => ⟨S64x20992, .i32⟩
  | .hbm, ⟨108, _⟩ => ⟨S64x20992, .i32⟩
  | .hbm, ⟨109, _⟩ => ⟨S64x20992x44, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .i32⟩
  | .local _ .vmem, ⟨7, _⟩ => ⟨S64x128, .i32⟩
  | .local _ .vmem, ⟨8, _⟩ => ⟨S64x128x44, .f32⟩
  | .local _ .vmem, ⟨9, _⟩ => ⟨S64x128x44, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1_0 : Ref sig .tc := ⟨.hbm, 15, rfl⟩
abbrev main_v10 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_c_4 : Ref sig .tc := ⟨.hbm, 36, rfl⟩
abbrev main_call1_v14 : Ref sig .tc := ⟨.hbm, 37, rfl⟩
abbrev main_v11 : Ref sig .tc := ⟨.hbm, 38, rfl⟩
abbrev main_v12 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v13 : Ref sig .tc := ⟨.hbm, 61, rfl⟩
abbrev main_v14 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_cst : Ref sig .tc := ⟨.hbm, 82, rfl⟩
abbrev main_call3_v14 : Ref sig .tc := ⟨.hbm, 83, rfl⟩
abbrev main_v15 : Ref sig .tc := ⟨.hbm, 84, rfl⟩
abbrev main_v16 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_c_4 : Ref sig .tc := ⟨.hbm, 105, rfl⟩
abbrev main_call4_v14 : Ref sig .tc := ⟨.hbm, 106, rfl⟩
abbrev main_v17 : Ref sig .tc := ⟨.hbm, 107, rfl⟩
abbrev main_v18 : Ref sig .tc := ⟨.hbm, 108, rfl⟩
abbrev main_v19 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![164], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128x44 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S64x512_S64x512x1_0_1 : S64x512.BroadcastsInDim S64x512x1 (![0, 1] : Fin 2 → Fin S64x512x1.rank)
  bcast_S64x512x1_S64x512x41_0_1_2 : S64x512x1.BroadcastsInDim S64x512x41 (![0, 1, 2] : Fin 3 → Fin S64x512x41.rank)
  shapeCasts_S64x512x41_S64x20992 : S64x512x41.ShapeCasts S64x20992
  bcast_S41_S64x512x41_2 : S41.BroadcastsInDim S64x512x41 (![2] : Fin 1 → Fin S64x512x41.rank)
  bcast_S_S64x20992 : S_.BroadcastsInDim S64x20992 (![] : Fin 0 → Fin S64x20992.rank)
  shapeCasts_S64x20992_S64x20992x1 : S64x20992.ShapeCasts S64x20992x1
  bcast_S_S64x20992x1 : S_.BroadcastsInDim S64x20992x1 (![] : Fin 0 → Fin S64x20992x1.rank)
  bcast_S1_S1x1x1_2 : S1.BroadcastsInDim S1x1x1 (![2] : Fin 1 → Fin S1x1x1.rank)
  bcast_S1x1x1_S64x20992x1_0_1_2 : S1x1x1.BroadcastsInDim S64x20992x1 (![0, 1, 2] : Fin 3 → Fin S64x20992x1.rank)
  reducesTo_S64x20992x1_S64x20992_d2 : S64x20992x1.ReducesTo [2] S64x20992
  h_S_ : 0 < S_.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S64x128x41_d2_w32 : S64x128x41.Iotas .tc 32 [2]
  shapeCasts_S64x128_S64x128x1 : S64x128.ShapeCasts S64x128x1
  broadcasts_S64x128x1_S64x128x41 : S64x128x1.Broadcasts S64x128x41
  natLt_1_32 : 1 < 32
  concatenates_S64x128x1_S64x128x41_S64x128x1_S64x128x1_S64x128x44_d2 : Shape.Concatenates [S64x128x1, S64x128x41, S64x128x1, S64x128x1] S64x128x44 2
  inb_S64x128x44_S64x128x44_0_0_0 : ∀ a, (![0, 0, 0] : Fin 3 → Nat) a + S64x128x44.size a ≤ S64x128x44.size a
  h_S64x128x44 : 0 < S64x128x44.numel
  gather_S64x20992_S64x20992x1_S64x20992_n_1_0_0_1_2_11_wf : GatherDims.WF S64x20992 S64x20992x1 S64x20992 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x20992.size a
  hwx0_0 : ∀ i : grid0.Coords, EltTy.bits .f32 = 32 ∨ (Rect.block (s := S64x20992) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x20992.size a
  hwx0_1 : ∀ i : grid0.Coords, EltTy.bits .f32 = 32 ∨ (Rect.block (s := S64x20992) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x20992.size a
  hwx0_2 : ∀ i : grid0.Coords, EltTy.bits .f32 = 32 ∨ (Rect.block (s := S64x20992) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x20992.size a
  hwx0_3 : ∀ i : grid0.Coords, EltTy.bits .i32 = 32 ∨ (Rect.block (s := S64x20992) S64x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128x44.size a ≤ S64x20992x44.size a
  hwx0_4 : ∀ i : grid0.Coords, EltTy.bits .f32 = 32 ∨ (Rect.block (s := S64x20992x44) S64x128x44.size (cc0_transform_4 i) (hinb0_4 i)).WholeWords (EltTy.packing .f32)

variable [Facts₀]

def comparator_i32_i32_d1 : BitVec 32 × BitVec 32 → BitVec 32 × BitVec 32 → BitVec 1 :=
  fun l r =>
    let v2 := IntOp.cmpi .slt l.1 r.1
    v2
def gather_S64x20992_S64x20992x1_S64x20992_n_1_0_0_1_2_11 : GatherDims S64x20992 S64x20992x1 S64x20992 where
  offsetDims := []
  collapsedSliceDims := [1]
  operandBatchingDims := [0]
  startIndicesBatchingDims := [0]
  startIndexMap := [1]
  indexVectorDim := 2
  sliceSizes := ![1, 1]
  wf := gather_S64x20992_S64x20992x1_S64x20992_n_1_0_0_1_2_11_wf

abbrev win0_0 : Pipeline.Window sig grid0 :=
  Pipeline.Window.ofSpec (Memref.whole main_v14) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x128x44.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512 : Shape := ⟨2, ![64, 512]⟩
abbrev S64x512x41 : Shape := ⟨3, ![64, 512, 41]⟩
abbrev S64x512x1 : Shape := ⟨3, ![64, 512, 1]⟩
abbrev S64x20992 : Shape := ⟨2, ![64, 20992]⟩
abbrev S41 : Shape := ⟨1, ![41]⟩
abbrev S_ : Shape := ⟨0, ![]⟩
abbrev S64x20992x1 : Shape := ⟨3, ![64, 20992, 1]⟩
abbrev S1 : Shape := ⟨1, ![1]⟩
abbrev S1x1x1 : Shape := ⟨3, ![1, 1, 1]⟩
abbrev S1x1x41 : Shape := ⟨3, ![1, 1, 41]⟩
abbrev S64x20992x41 : Shape := ⟨3, ![64, 20992, 41]⟩
abbrev S64x20992x42 : Shape := ⟨3, ![64, 20992, 42]⟩
abbrev S64x20992x44 : Shape := ⟨3, ![64, 20992, 44]⟩

abbrev nBuf : Space → Nat
  | .hbm => 120
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S64x512x41, .f32⟩
  | .hbm, ⟨2, _⟩ => ⟨S64x512x41, .i32⟩
  | .hbm, ⟨3, _⟩ => ⟨S64x512x1, .f32⟩
  | .hbm, ⟨4, _⟩ => ⟨S64x512x41, .f32⟩
  | .hbm, ⟨5, _⟩ => ⟨S64x20992, .f32⟩
  | .hbm, ⟨6, _⟩ => ⟨S64x20992, .f32⟩
  | .hbm, ⟨7, _⟩ => ⟨S64x20992, .i32⟩
  | .hbm, ⟨8, _⟩ => ⟨S41, .i32⟩
  | .hbm, ⟨9, _⟩ => ⟨S64x512x41, .i32⟩
  | .hbm, ⟨10, _⟩ => ⟨S64x20992, .i32⟩
  | .hbm, ⟨11, _⟩ => ⟨S_, .i32⟩
  | .hbm, ⟨12, _⟩ => ⟨S64x20992, .i32⟩
  | .hbm, ⟨13, _⟩ => ⟨S64x20992, .i32⟩
  | .hbm, ⟨14, _⟩ => ⟨S64x20992, .i32⟩
  | .hbm, ⟨15, _⟩ => ⟨S64x20992, .i32⟩
  | .hbm, ⟨16, _⟩ => ⟨S64x20992, .i32⟩
  | .hbm, ⟨17, _⟩ => ⟨S_, .i32⟩
  | .hbm, ⟨18, _⟩ => ⟨S64x20992, .i32⟩
  | .hbm, ⟨19, _⟩ => ⟨S64x20992, .i1⟩
  | .hbm, ⟨20, _⟩ => ⟨S_, .i32⟩
  | .hbm, ⟨21, _⟩ => ⟨S64x20992, .i32⟩
  | .hbm, ⟨22, _⟩ => ⟨S64x20992, .i32⟩
  | .hbm, ⟨23, _⟩ => ⟨S64x20992, .i32⟩
  | .hbm, ⟨24, _⟩ => ⟨S64x20992x1, .i32⟩
  | .hbm, ⟨25, _⟩ => ⟨S1, .i32⟩
  | .hbm, ⟨26, _⟩ => ⟨S_, .i32⟩
  | .hbm, ⟨27, _⟩ => ⟨S64x20992x1, .i32⟩
  | .hbm, ⟨28, _⟩ => ⟨S64x20992x1, .i1⟩
  | .hbm, ⟨29, _⟩ => ⟨S1x1x1, .i32⟩
  | .hbm, ⟨30, _⟩ => ⟨S64x20992x1, .i32⟩
  | .hbm, ⟨31, _⟩ => ⟨S64x20992x1, .i1⟩
  | .hbm, ⟨32, _⟩ => ⟨S64x20992x1, .i1⟩
  | .hbm, ⟨33, _⟩ => ⟨S_, .i1⟩
  | .hbm, ⟨34, _⟩ => ⟨S64x20992, .i1⟩
  | .hbm, ⟨35, _⟩ => ⟨S64x20992, .i32⟩
  | .hbm, ⟨36, _⟩ => ⟨S_, .i32⟩
  | .hbm, ⟨37, _⟩ => ⟨S64x20992, .i32⟩
  | .hbm, ⟨38, _⟩ => ⟨S64x20992, .i32⟩
  | .hbm, ⟨39, _⟩ => ⟨S64x20992, .f32⟩
  | .hbm, ⟨40, _⟩ => ⟨S_, .i32⟩
  | .hbm, ⟨41, _⟩ => ⟨S64x20992, .i32⟩
  | .hbm, ⟨42, _⟩ => ⟨S64x20992, .i1⟩
  | .hbm, ⟨43, _⟩ => ⟨S_, .i32⟩
  | .hbm, ⟨44, _⟩ => ⟨S64x20992, .i32⟩
  | .hbm, ⟨45, _⟩ => ⟨S64x20992, .i32⟩
  | .hbm, ⟨46, _⟩ => ⟨S64x20992, .i32⟩
  | .hbm, ⟨47, _⟩ => ⟨S64x20992x1, .i32⟩
  | .hbm, ⟨48, _⟩ => ⟨S1, .i32⟩
  | .hbm, ⟨49, _⟩ => ⟨S_, .i32⟩
  | .hbm, ⟨50, _⟩ => ⟨S64x20992x1, .i32⟩
  | .hbm, ⟨51, _⟩ => ⟨S64x20992x1, .i1⟩
  | .hbm, ⟨52, _⟩ => ⟨S1x1x1, .i32⟩
  | .hbm, ⟨53, _⟩ => ⟨S64x20992x1, .i32⟩
  | .hbm, ⟨54, _⟩ => ⟨S64x20992x1, .i1⟩
  | .hbm, ⟨55, _⟩ => ⟨S64x20992x1, .i1⟩
  | .hbm, ⟨56, _⟩ => ⟨S_, .i1⟩
  | .hbm, ⟨57, _⟩ => ⟨S64x20992, .i1⟩
  | .hbm, ⟨58, _⟩ => ⟨S64x20992, .f32⟩
  | .hbm, ⟨59, _⟩ => ⟨S_, .f32⟩
  | .hbm, ⟨60, _⟩ => ⟨S64x20992, .f32⟩
  | .hbm, ⟨61, _⟩ => ⟨S64x20992, .f32⟩
  | .hbm, ⟨62, _⟩ => ⟨S64x20992, .f32⟩
  | .hbm, ⟨63, _⟩ => ⟨S_, .i32⟩
  | .hbm, ⟨64, _⟩ => ⟨S64x20992, .i32⟩
  | .hbm, ⟨65, _⟩ => ⟨S64x20992, .i1⟩
  | .hbm, ⟨66, _⟩ => ⟨S_, .i32⟩
  | .hbm, ⟨67, _⟩ => ⟨S64x20992, .i32⟩
  | .hbm, ⟨68, _⟩ => ⟨S64x20992, .i32⟩
  | .hbm, ⟨69, _⟩ => ⟨S64x20992, .i32⟩
  | .hbm, ⟨70, _⟩ => ⟨S64x20992x1, .i32⟩
  | .hbm, ⟨71, _⟩ => ⟨S1, .i32⟩
  | .hbm, ⟨72, _⟩ => ⟨S_, .i32⟩
  | .hbm, ⟨73, _⟩ => ⟨S64x20992x1, .i32⟩
  | .hbm, ⟨74, _⟩ => ⟨S64x20992x1, .i1⟩
  | .hbm, ⟨75, _⟩ => ⟨S1x1x1, .i32⟩
  | .hbm, ⟨76, _⟩ => ⟨S64x20992x1, .i32⟩
  | .hbm, ⟨77, _⟩ => ⟨S64x20992x1, .i1⟩
  | .hbm, ⟨78, _⟩ => ⟨S64x20992x1, .i1⟩
  | .hbm, ⟨79, _⟩ => ⟨S_, .i1⟩
  | .hbm, ⟨80, _⟩ => ⟨S64x20992, .i1⟩
  | .hbm, ⟨81, _⟩ => ⟨S64x20992, .f32⟩
  | .hbm, ⟨82, _⟩ => ⟨S_, .f32⟩
  | .hbm, ⟨83, _⟩ => ⟨S64x20992, .f32⟩
  | .hbm, ⟨84, _⟩ => ⟨S64x20992, .f32⟩
  | .hbm, ⟨85, _⟩ => ⟨S64x20992, .f32⟩
  | .hbm, ⟨86, _⟩ => ⟨S_, .i32⟩
  | .hbm, ⟨87, _⟩ => ⟨S64x20992, .i32⟩
  | .hbm, ⟨88, _⟩ => ⟨S64x20992, .i1⟩
  | .hbm, ⟨89, _⟩ => ⟨S_, .i32⟩
  | .hbm, ⟨90, _⟩ => ⟨S64x20992, .i32⟩
  | .hbm, ⟨91, _⟩ => ⟨S64x20992, .i32⟩
  | .hbm, ⟨92, _⟩ => ⟨S64x20992, .i32⟩
  | .hbm, ⟨93, _⟩ => ⟨S64x20992x1, .i32⟩
  | .hbm, ⟨94, _⟩ => ⟨S1, .i32⟩
  | .hbm, ⟨95, _⟩ => ⟨S_, .i32⟩
  | .hbm, ⟨96, _⟩ => ⟨S64x20992x1, .i32⟩
  | .hbm, ⟨97, _⟩ => ⟨S64x20992x1, .i1⟩
  | .hbm, ⟨98, _⟩ => ⟨S1x1x1, .i32⟩
  | .hbm, ⟨99, _⟩ => ⟨S64x20992x1, .i32⟩
  | .hbm, ⟨100, _⟩ => ⟨S64x20992x1, .i1⟩
  | .hbm, ⟨101, _⟩ => ⟨S64x20992x1, .i1⟩
  | .hbm, ⟨102, _⟩ => ⟨S_, .i1⟩
  | .hbm, ⟨103, _⟩ => ⟨S64x20992, .i1⟩
  | .hbm, ⟨104, _⟩ => ⟨S64x20992, .i32⟩
  | .hbm, ⟨105, _⟩ => ⟨S_, .i32⟩
  | .hbm, ⟨106, _⟩ => ⟨S64x20992, .i32⟩
  | .hbm, ⟨107, _⟩ => ⟨S64x20992, .i32⟩
  | .hbm, ⟨108, _⟩ => ⟨S64x20992, .i32⟩
  | .hbm, ⟨109, _⟩ => ⟨S64x20992x1, .i32⟩
  | .hbm, ⟨110, _⟩ => ⟨S1x1x41, .i32⟩
  | .hbm, ⟨111, _⟩ => ⟨S64x20992x41, .i32⟩
  | .hbm, ⟨112, _⟩ => ⟨S64x20992x41, .i32⟩
  | .hbm, ⟨113, _⟩ => ⟨S64x20992x41, .i1⟩
  | .hbm, ⟨114, _⟩ => ⟨S64x20992x41, .f32⟩
  | .hbm, ⟨115, _⟩ => ⟨S64x20992x1, .f32⟩
  | .hbm, ⟨116, _⟩ => ⟨S64x20992x42, .f32⟩
  | .hbm, ⟨117, _⟩ => ⟨S64x20992x1, .f32⟩
  | .hbm, ⟨118, _⟩ => ⟨S64x20992x1, .f32⟩
  | .hbm, ⟨119, _⟩ => ⟨S64x20992x44, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1_0 : Ref sig .tc := ⟨.hbm, 15, rfl⟩
abbrev main_v10 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_c_4 : Ref sig .tc := ⟨.hbm, 36, rfl⟩
abbrev main_call1_v14 : Ref sig .tc := ⟨.hbm, 37, rfl⟩
abbrev main_v11 : Ref sig .tc := ⟨.hbm, 38, rfl⟩
abbrev main_v12 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v13 : Ref sig .tc := ⟨.hbm, 61, rfl⟩
abbrev main_v14 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_cst : Ref sig .tc := ⟨.hbm, 82, rfl⟩
abbrev main_call3_v14 : Ref sig .tc := ⟨.hbm, 83, rfl⟩
abbrev main_v15 : Ref sig .tc := ⟨.hbm, 84, rfl⟩
abbrev main_v16 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_c_4 : Ref sig .tc := ⟨.hbm, 105, rfl⟩
abbrev main_call4_v14 : Ref sig .tc := ⟨.hbm, 106, rfl⟩
abbrev main_v17 : Ref sig .tc := ⟨.hbm, 107, rfl⟩
abbrev main_v18 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_v19 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩

abbrev nD : Nat := 1
abbrev τ : Topo := Topo.v7x

variable {F : FTy → Type} [FloatOps F]

class Facts₀ : Prop where
  bcast_S64x512_S64x512x1_0_1 : S64x512.BroadcastsInDim S64x512x1 (![0, 1] : Fin 2 → Fin S64x512x1.rank)
  bcast_S64x512x1_S64x512x41_0_1_2 : S64x512x1.BroadcastsInDim S64x512x41 (![0, 1, 2] : Fin 3 → Fin S64x512x41.rank)
  shapeCasts_S64x512x41_S64x20992 : S64x512x41.ShapeCasts S64x20992
  bcast_S41_S64x512x41_2 : S41.BroadcastsInDim S64x512x41 (![2] : Fin 1 → Fin S64x512x41.rank)
  bcast_S_S64x20992 : S_.BroadcastsInDim S64x20992 (![] : Fin 0 → Fin S64x20992.rank)
  shapeCasts_S64x20992_S64x20992x1 : S64x20992.ShapeCasts S64x20992x1
  bcast_S_S64x20992x1 : S_.BroadcastsInDim S64x20992x1 (![] : Fin 0 → Fin S64x20992x1.rank)
  bcast_S1_S1x1x1_2 : S1.BroadcastsInDim S1x1x1 (![2] : Fin 1 → Fin S1x1x1.rank)
  bcast_S1x1x1_S64x20992x1_0_1_2 : S1x1x1.BroadcastsInDim S64x20992x1 (![0, 1, 2] : Fin 3 → Fin S64x20992x1.rank)
  reducesTo_S64x20992x1_S64x20992_d2 : S64x20992x1.ReducesTo [2] S64x20992
  h_S_ : 0 < S_.numel
  bcast_S64x20992_S64x20992x1_0_1 : S64x20992.BroadcastsInDim S64x20992x1 (![0, 1] : Fin 2 → Fin S64x20992x1.rank)
  bcast_S64x20992x1_S64x20992x41_0_1_2 : S64x20992x1.BroadcastsInDim S64x20992x41 (![0, 1, 2] : Fin 3 → Fin S64x20992x41.rank)
  bcast_S1x1x41_S64x20992x41_0_1_2 : S1x1x41.BroadcastsInDim S64x20992x41 (![0, 1, 2] : Fin 3 → Fin S64x20992x41.rank)
  concatenates_S64x20992x1_S64x20992x41_S64x20992x42_d2 : Shape.Concatenates [S64x20992x1, S64x20992x41] S64x20992x42 2
  concatenates_S64x20992x42_S64x20992x1_S64x20992x1_S64x20992x44_d2 : Shape.Concatenates [S64x20992x42, S64x20992x1, S64x20992x1] S64x20992x44 2
  gather_S64x20992_S64x20992x1_S64x20992_n_1_0_0_1_2_11_wf : GatherDims.WF S64x20992 S64x20992x1 S64x20992 [] [1] [0] [1] [0] 2 ![1, 1]

variable [Facts₀]

def comparator_i32_i32_d1 : BitVec 32 × BitVec 32 → BitVec 32 × BitVec 32 → BitVec 1 :=
  fun l r =>
    let v2 := IntOp.cmpi .slt l.1 r.1
    v2
def gather_S64x20992_S64x20992x1_S64x20992_n_1_0_0_1_2_11 : GatherDims S64x20992 S64x20992x1 S64x20992 where
  offsetDims := []
  collapsedSliceDims := [1]
  operandBatchingDims := [0]
  startIndicesBatchingDims := [0]
  startIndexMap := [1]
  indexVectorDim := 2
  sliceSizes := ![1, 1]
  wf := gather_S64x20992_S64x20992x1_S64x20992_n_1_0_0_1_2_11_wf

class Facts : Prop extends Facts₀ where

variable [Facts]
-- ==== Proof.LibRank3Keepdims.lean ====
/-
  Rank-2 arrays placed in a rank-3 box along a new unit axis, read at an index written by coordinates.

  A matrix `w : [a, c]` becomes a column stack `[a, c, 1]` or a row stack `[a, 1, c]` by a shape cast, and either is then
  broadcast along its unit axis. Read at `(i, j, l)` the first is `w (i, j)` and the second `w (i, l)`: the pair whose
  difference is the table of all pairwise differences `w (i, j) - w (i, l)` of each row `i`. With them: the row
  `[a, 1, c]` cut out of a rank-3 array along its middle axis and cast back to a matrix `[a, c]`.
  (The library's Lib/ValueLayout.lean has the leading-unit-axis casts and the rank-2 row broadcast; these are the
  trailing- and middle-unit-axis forms at rank 3, in its style.)
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_two, Shape.rowMajor_val_three]
    obtain rfl : u = 0 := Subsingleton.elim _ _
    show i.val * b + j.val = (i.val * b + j.val) * 1 + 0
    rw [Nat.mul_one, Nat.add_zero])

/-- An `[a, c]` array cast to `[a, 1, c]` reads, at `(i, u, l)`, the operand at `(i, l)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (l : Fin c) :
    shapeCast ⟨3, ![a, 1, c]⟩ x h (ix3 i u l) = x (ix2 i l) :=
  shapeCast_apply x h _ _ (by
    rw [Shape.rowMajor_val_two, Shape.rowMajor_val_three]
    obtain rfl : u = 0 := Subsingleton.elim _ _
    show i.val * c + l.val = (i.val * 1 + 0) * c + l.val
    rw [Nat.mul_one, Nat.add_zero])

/-- An `[a, 1, c]` array cast to `[a, c]` reads, at `(i, l)`, the operand at `(i, 0, l)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (l : Fin c) :
    shapeCast ⟨2, ![a, c]⟩ x h (ix2 i l) = x (ix3 i (0 : Fin 1) l) :=
  shapeCast_apply x h _ _ (by
    rw [Shape.rowMajor_val_three, Shape.rowMajor_val_two]
    show (i.val * 1 + 0) * c + l.val = i.val * c + l.val
    rw [Nat.mul_one, Nat.add_zero])

/-- An `[a, b, 1]` array broadcast to `[a, b, c]` reads, at `(i, j, l)`, the operand's one entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand's one row entry `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- A matrix `w : [a, b]` stood up as columns `[a, b, 1]` and broadcast to `[a, b, c]` reads `w (i, j)` at `(i, j, l)`. -/
theorem broadcastTo_cols_apply {a b c : ℕ} (w : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (l : Fin c) :
    broadcastTo ⟨3, ![a, b, c]⟩ (shapeCast ⟨3, ![a, b, 1]⟩ w h) h' (ix3 i j l) = w (ix2 i j) :=
  (broadcastTo_ab1_abc_apply _ h' i j l).trans (shapeCast_ab_ab1_apply w h i j 0)

/-- A matrix `w : [a, c]` laid down as rows `[a, 1, c]` and broadcast to `[a, b, c]` reads `w (i, l)` at `(i, j, l)`. -/
theorem broadcastTo_rows_apply {a b c : ℕ} (w : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (l : Fin c) :
    broadcastTo ⟨3, ![a, b, c]⟩ (shapeCast ⟨3, ![a, 1, c]⟩ w h) h' (ix3 i j l) = w (ix2 i l) :=
  (broadcastTo_a1c_abc_apply _ h' i j l).trans (shapeCast_ac_a1c_apply w h i 0 l)

/-- The matrix at middle coordinate `o` of a rank-3 array — the slice `[a, 1, c]` from `o` along axis 1, cast to
    `[a, c]` — reads, at `(i, l)`, the array at `(i, o, l)`. -/
theorem sliceRow_apply {a n c : ℕ} (o : ℕ) (X : (⟨3, ![a, n, c]⟩ : Shape).Idx → α)
    (h : (⟨3, ![a, n, c]⟩ : Shape).Slices ![0, o, 0] ⟨3, ![a, 1, c]⟩)
    (h' : (⟨3, ![a, 1, c]⟩ : Shape).ShapeCasts ⟨2, ![a, c]⟩) (i : Fin a) (l : Fin c) :
    shapeCast ⟨2, ![a, c]⟩ (extractStridedSlice ⟨3, ![a, 1, c]⟩ ![0, o, 0] X h) h' (ix2 i l)
      = X (ix3 i ⟨o, Nat.lt_of_lt_of_le (Nat.lt_succ_self o) (h.2 1)⟩ l) :=
  (shapeCast_a1c_ac_apply _ h' i l).trans (slice3_axis1_apply o X h i (0 : Fin 1) l _ rfl)

end Idealize.ShloMosaic.ValueIdx
-- ==== Proof.LibLastAxisJoin.lean ====
/-
  A join of rank-3 arrays along their LAST axis, read at an index written by coordinates.

  Arrays `[a, b, d₀]`, `[a, b, d₁]`, … laid end to end along the last axis make an array `[a, b, c]` with
  `c = d₀ + d₁ + …`. Its entry `(i, j, l)` is an entry of exactly one piece: the piece `k` whose span
  `pre ≤ l < pre + dₖ` holds `l` (`pre` the total extent of the pieces before it), read at `(i, j, l - pre)`.
  This is the library's `concatenate_apply_piece` (Lib/Pipeline/Value.lean) with the two leading coordinates
  carried along, for any number of pieces.
-/
import Idealize.ShloMosaic.Lib.Pipeline.Value
import Idealize.ShloMosaic.Lib.ValueIdx

namespace Idealize.ShloMosaic.ValueIdx

open Idealize.ShloMosaic

variable {α : Type}

/-- A join along the last axis of rank-3 arrays reads, at `(i, j, l)`, piece `k` at `(i, j, l')` whenever the
    pieces before `k` have total last-axis extent `pre` and `pre + l' = l`. -/
theorem concatenate_last3_apply {a b c : ℕ} (xs : List ((s : Shape) × (s.Idx → α)))
    (h : Shape.Concatenates (xs.map (·.1)) ⟨3, ![a, b, c]⟩ 2) (i : Fin a) (j : Fin b) (l : Fin c)
    (k : ℕ) (hk : k < xs.length) {d : ℕ} (x₁ : (⟨3, ![a, b, d]⟩ : Shape).Idx → α)
    (hxk : xs[k] = ⟨⟨3, ![a, b, d]⟩, x₁⟩) (pre : ℕ)
    (hpre : (((xs.take k).map (·.1)).map fun s : Shape =>
      if h : s.rank = 3 then s.size ((2 : Fin 3).cast h.symm) else 0).sum = pre)
    (l' : Fin d) (hl : pre + l'.val = l.val) :
    concatenate ⟨3, ![a, b, c]⟩ 2 xs h (ix3 i j l) = x₁ (ix3 i j l') :=
  concatenate_apply_piece (t := ⟨3, ![a, b, c]⟩) 2 xs h (ix3 i j l) k hk ⟨3, ![a, b, d]⟩ x₁ hxk rfl pre hpre (ix3 i j l')
    (fun ax hax => by
      match ax, hax with
      | ⟨0, _⟩, _ => rfl
      | ⟨1, _⟩, _ => rfl
      | ⟨2, _⟩, hax => exact absurd rfl hax)
    hl

end Idealize.ShloMosaic.ValueIdx
-- ==== Proof.PackedRow.lean ====
/-
  One row of the packed array, as a function of four scalars.

  The result has, for every batch row `b` and packed position `l`, a row of 44 numbers:

      [ τ | 1{c = 0}, 1{c = 1}, …, 1{c = 40} | u | v ]

  the time `τ`, the 41 indicators of the channel word `c` (a 32-bit integer: exactly one indicator is 1 when
  `0 ≤ c ≤ 40`, none otherwise), the value `u` and the validity flag `v`. `entry τ u v c k` is position `k`
  of that row.

  An indicator is the one-bit result of comparing two 32-bit words, read as a real number. The two programs
  spell that reading differently — one widens the bit to 32 bits without sign and reads the word as a SIGNED
  integer, the other reads the bit as an UNSIGNED integer, and they compare the two words in opposite order —
  and both are `hot`: a bit widened with zeros is 0 or 1 whichever way it is read, and equality of words is
  symmetric.
-/
import Idealize.ShloMosaic.PureOps.Ideal
import Idealize.ShloMosaic.Lib.ValueIdx

noncomputable section

namespace Cert.Packed

open Idealize.ShloMosaic

/-- The indicator that the channel word `c` is the 32-bit word of `n`, as an extended real: 1 or 0. -/
def hot (c : BitVec 32) (n : ℕ) : EReal :=
  (((IntOp.cmpi .eq c (BitVec.ofNat 32 n)).toNat : ℝ) : EReal)

/-- Position `k` of the packed row `[τ | 41 indicators of c | u | v]`. -/
def entry (τ u v : EReal) (c : BitVec 32) (k : Fin 44) : EReal :=
  if k.val = 0 then τ else if k.val ≤ 41 then hot c (k.val - 1) else if k.val = 42 then u else v

/-- A bit widened to 32 bits by zeros and read signed is the bit read unsigned: both are 0 or 1. -/
theorem toInt_setWidth_ofBool (β : Bool) :
    ((BitVec.ofBool β).setWidth 32).toInt = ((BitVec.ofBool β).toNat : ℤ) := by
  cases β <;> decide

/-- The indicator spelt with the UNSIGNED reading of the comparison bit. -/
theorem hot_unsigned (c : BitVec 32) (n : ℕ) :
    FloatOps.uitofp (F := Ideal) .f32 (IntOp.cmpi .eq c (BitVec.ofNat 32 n)) = hot c n := rfl

/-- The indicator spelt with the words compared in the other order, the bit widened to 32 bits and read SIGNED. -/
theorem hot_signed (c : BitVec 32) (n : ℕ) :
    FloatOps.sitofp (F := Ideal) .f32 ((IntOp.cmpi .eq (BitVec.ofNat 32 n) c).setWidth 32) = hot c n := by
  show ((((IntOp.cmpi .eq (BitVec.ofNat 32 n) c).setWidth 32).toInt : ℝ) : EReal)
    = (((IntOp.cmpi .eq c (BitVec.ofNat 32 n)).toNat : ℝ) : EReal)
  have e : IntOp.cmpi .eq (BitVec.ofNat 32 n) c = IntOp.cmpi .eq c (BitVec.ofNat 32 n) := by
    show BitVec.ofBool (BitVec.ofNat 32 n == c) = BitVec.ofBool (c == BitVec.ofNat 32 n)
    rw [Bool.beq_comm]
  rw [e]
  show ((((BitVec.ofBool (c == BitVec.ofNat 32 n)).setWidth 32).toInt : ℝ) : EReal) = _
  rw [toInt_setWidth_ofBool, Int.cast_natCast]
  rfl

/-- THE PACKED ARRAY `[64, 20992, 44]`: row `(b, l)` is the packed row of the four arrays' entries at `(b, l)` — the times
    `τ`, values `u`, validity flags `v` (reals) and channel words `cw` (32-bit integers), each `[64, 20992]`. -/
def packed (τ u v : (⟨2, ![64, 20992]⟩ : Shape).Idx → EReal) (cw : (⟨2, ![64, 20992]⟩ : Shape).Idx → BitVec 32) :
    (⟨3, ![64, 20992, 44]⟩ : Shape).Idx → EReal :=
  fun i => entry (τ (ValueIdx.ix2 (n0 := 64) (n1 := 20992) (i 0) (i 1))) (u (ValueIdx.ix2 (n0 := 64) (n1 := 20992) (i 0) (i 1)))
    (v (ValueIdx.ix2 (n0 := 64) (n1 := 20992) (i 0) (i 1))) (cw (ValueIdx.ix2 (n0 := 64) (n1 := 20992) (i 0) (i 1))) (i 2)

/-- The packed array at `(b, l, k)`. -/
theorem packed_apply (τ u v : (⟨2, ![64, 20992]⟩ : Shape).Idx → EReal) (cw : (⟨2, ![64, 20992]⟩ : Shape).Idx → BitVec 32)
    (b : Fin 64) (l : Fin 20992) (k : Fin 44) :
    packed τ u v cw (ValueIdx.ix3 b l k)
      = entry (τ (ValueIdx.ix2 b l)) (u (ValueIdx.ix2 b l)) (v (ValueIdx.ix2 b l)) (cw (ValueIdx.ix2 b l)) k := rfl

end Cert.Packed

end
-- ==== Proof.BlockValue.lean ====
/-
  What one grid point stores, read at an index.

  At each of the 164 grid points the body loads four blocks `[64, 128]` — times, values, validity flags (reals) and
  channel words (32-bit integers) — and stores one block `[64, 128, 44]`: for every `(b, r)` the packed row
  `[τ | 1{c = 0} … 1{c = 40} | u | v]` of the four blocks' entries at `(b, r)` (PackedRow.lean). The stored block is
  a join along the last axis of four pieces of widths 1, 41, 1, 1; the three width-1 pieces are the input blocks stood
  up as columns, and the width-41 piece compares a running channel number along the last axis with the channel word
  spread along it. Entry `(b, r, k)` therefore belongs to the piece whose span holds `k`:
  `k = 0`, `1 ≤ k ≤ 41`, `k = 42`, `k = 43`.
-/
import proofs.«117387_j68753836474773_2_alg».proof.Proof.Gen.KernelIdeal.Skeleton
import proofs.«117387_j68753836474773_2_alg».proof.Proof.LibRank3Keepdims
import proofs.«117387_j68753836474773_2_alg».proof.Proof.LibLastAxisJoin
import proofs.«117387_j68753836474773_2_alg».proof.Proof.PackedRow
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

/-- A block `[64, 128]` viewed as `[64, 128]` again and then stood up as a column stack `[64, 128, 1]` reads, at
    `(b, r, 0)`, the block's entry `(b, r)`. -/
theorem column_apply {α : Type} (x : S64x128.Idx → α) (h : S64x128.ShapeCasts S64x128) (h' : S64x128.ShapeCasts S64x128x1)
    (b : Fin 64) (r : Fin 128) (u : Fin 1) :
    shapeCast S64x128x1 (shapeCast S64x128 x h) h' (ix3 b r u) = x (ix2 b r) :=
  (shapeCast_ab_ab1_apply _ h' b r u).trans (congrFun (shapeCast_self x h) _)

/-- The 41 indicators of a block: entry `(b, r, l)` compares the channel number `l` with the block's channel word at
    `(b, r)`, and is the indicator `hot`. -/
theorem indicators_apply (c : S64x128.Idx → BitVec 32) (h : S64x128.ShapeCasts S64x128) (h' : S64x128.ShapeCasts S64x128x1)
    (hb : S64x128x1.Broadcasts S64x128x41) (hi : S64x128x41.Iotas .tc 32 [2]) (hw : 1 < 32)
    (b : Fin 64) (r : Fin 128) (l : Fin 41) :
    (sitofp (F := Ideal) .f32 (extui 32 (cmpi .eq (iota .tc S64x128x41 32 [2] hi)
      (broadcastTo S64x128x41 (shapeCast S64x128x1 (shapeCast S64x128 c h) h') hb)) hw) : FVec Ideal S64x128x41 .f32) (ix3 b r l)
      = Cert.Packed.hot (c (ix2 b r)) l.val := by
  show FloatOps.sitofp (F := Ideal) .f32 ((IntOp.cmpi .eq (iota .tc S64x128x41 32 [2] hi (ix3 b r l))
      (broadcastTo S64x128x41 (shapeCast S64x128x1 (shapeCast S64x128 c h) h') hb (ix3 b r l))).setWidth 32) = _
  rw [iota_single_apply, broadcastTo_cols_apply, shapeCast_self]
  exact Cert.Packed.hot_signed _ _

/-- THE BODY'S STORED VALUE AT AN INDEX: entry `(b, r, k)` of what one grid point stores is position `k` of the
    packed row built from the four input blocks' entries `(b, r)` — the join along the last axis of the time column
    (width 1), the indicators (width 41), the value column and the validity column (width 1 each). -/
theorem stored_apply (v0 v2 v4 : Vec Ideal S64x128 .f32) (v6 : Vec Ideal S64x128 .i32) (b : Fin 64) (r : Fin 128) (k : Fin 44) :
    k0_pay1 (F := Ideal) v0 v2 v4 v6 (ix3 b r k)
      = Cert.Packed.entry (v0 (ix2 b r)) (v2 (ix2 b r)) (v4 (ix2 b r)) (v6 (ix2 b r)) k := by
  unfold k0_pay1
  dsimp only
  unfold Cert.Packed.entry
  by_cases h0 : k.val = 0
  · rw [if_pos h0]
    exact (concatenate_last3_apply _ _ b r k 0 (by show (0 : ℕ) < 4; decide) _ rfl 0 rfl (0 : Fin 1)
      (by show 0 + 0 = k.val; omega)).trans (column_apply _ _ _ b r 0)
  · rw [if_neg h0]
    by_cases h1 : k.val ≤ 41
    · rw [if_pos h1]
      have hl : k.val - 1 < 41 := by omega
      refine (concatenate_last3_apply _ _ b r k 1 (by show (1 : ℕ) < 4; decide) _ rfl 1 rfl (⟨k.val - 1, hl⟩ : Fin 41)
        (by show 1 + (k.val - 1) = k.val; omega)).trans ?_
      exact indicators_apply _ _ _ _ _ _ b r ⟨k.val - 1, hl⟩
    · rw [if_neg h1]
      by_cases h2 : k.val = 42
      · rw [if_pos h2]
        exact (concatenate_last3_apply _ _ b r k 2 (by show (2 : ℕ) < 4; decide) _ rfl 42 rfl (0 : Fin 1)
          (by show 42 + 0 = k.val; omega)).trans (column_apply _ _ _ b r 0)
      · rw [if_neg h2]
        have hk := k.isLt
        exact (concatenate_last3_apply _ _ b r k 3 (by show (3 : ℕ) < 4; decide) _ rfl 43 rfl (0 : Fin 1)
          (by show 43 + 0 = k.val; omega)).trans (column_apply _ _ _ b r 0)

end Cert.KernelIdeal.Block

end
-- ==== Proof.KernelArray.lean ====
/-
  From the blocks to the whole array.

  The grid has 164 points; point `t` reads columns `128 t … 128 t + 127` of each of the four input arrays
  `[64, 20992]` (all 64 rows) and writes back rows `(b, 128 t + r, ·)` of the result `[64, 20992, 44]`. What it writes
  is the packed row of the inputs at the same `(b, 128 t + r)` (BlockValue.lean), so each written block is the
  restriction of ONE whole-array function — the packed array of the four input arrays as the region finds them —
  and the 164 blocks tile the result: position `l` is covered by point `l / 128`. Hence the result array ends
  holding the packed array. The index arithmetic is done over arbitrary arrays and blocks; the four arrays the region
  finds (long host computations of the arguments) are only ever substituted for those, never looked into.
-/
import proofs.«117387_j68753836474773_2_alg».proof.Proof.Gen.KernelIdeal.Value
import proofs.«117387_j68753836474773_2_alg».proof.Proof.BlockValue
import proofs.«117387_j68753836474773_2_alg».proof.Proof.PackedRow
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps, decided over the 164 points: every input block is block `(0, t)` of its array and the
    output block is block `(0, t, 0)` of the result. -/
theorem block_indices : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 3) = 0 ∧ win0_4.index t (1 : Fin 3) = t.val ∧ win0_4.index t (2 : Fin 3) = 0 :=
  (by decide +kernel : ∀ t : Fin grid0.N, _)

/-! ## A block of ANY array, read at an index: columns `128 t …` -/

/-- Window 0's block at point `t` of any array `[64, 20992]`: entry `(b, r)` is the array's `(b, 128 t + r)`. -/
theorem read_block0 (t : Fin cfg0.N) (A : S64x20992.Idx → EReal) (b : Fin 64) (r : Fin 128) (l : Fin 20992)
    (hl : l.val = t.val * 128 + r.val) :
    ((cfg0.win 0).blk t).view.read (Elt Ideal) A (ix2 b r) = A (ix2 b l) := by
  obtain ⟨e0, e1, -⟩ := block_indices t
  show A (((cfg0.win 0).blk t).view.emb (ix2 b r)) = A (ix2 b l)
  refine congrArg A ?_
  funext a; apply Fin.ext
  match a with
  | ⟨0, _⟩ => show win0_0.index t (0 : Fin 2) * 64 + 1 * b.val = b.val; rw [e0]; omega
  | ⟨1, _⟩ => show win0_0.index t (1 : Fin 2) * 128 + 1 * r.val = l.val; rw [e1, hl]; omega

/-- Window 1's block at point `t` of any array `[64, 20992]`: entry `(b, r)` is the array's `(b, 128 t + r)`. -/
theorem read_block1 (t : Fin cfg0.N) (A : S64x20992.Idx → EReal) (b : Fin 64) (r : Fin 128) (l : Fin 20992)
    (hl : l.val = t.val * 128 + r.val) :
    ((cfg0.win 1).blk t).view.read (Elt Ideal) A (ix2 b r) = A (ix2 b l) := by
  obtain ⟨-, -, e0, e1, -⟩ := block_indices t
  show A (((cfg0.win 1).blk t).view.emb (ix2 b r)) = A (ix2 b l)
  refine congrArg A ?_
  funext a; apply Fin.ext
  match a with
  | ⟨0, _⟩ => show win0_1.index t (0 : Fin 2) * 64 + 1 * b.val = b.val; rw [e0]; omega
  | ⟨1, _⟩ => show win0_1.index t (1 : Fin 2) * 128 + 1 * r.val = l.val; rw [e1, hl]; omega

/-- Window 2's block at point `t` of any array `[64, 20992]`: entry `(b, r)` is the array's `(b, 128 t + r)`. -/
theorem read_block2 (t : Fin cfg0.N) (A : S64x20992.Idx → EReal) (b : Fin 64) (r : Fin 128) (l : Fin 20992)
    (hl : l.val = t.val * 128 + r.val) :
    ((cfg0.win 2).blk t).view.read (Elt Ideal) A (ix2 b r) = A (ix2 b l) := by
  obtain ⟨-, -, -, -, e0, e1, -⟩ := block_indices t
  show A (((cfg0.win 2).blk t).view.emb (ix2 b r)) = A (ix2 b l)
  refine congrArg A ?_
  funext a; apply Fin.ext
  match a with
  | ⟨0, _⟩ => show win0_2.index t (0 : Fin 2) * 64 + 1 * b.val = b.val; rw [e0]; omega
  | ⟨1, _⟩ => show win0_2.index t (1 : Fin 2) * 128 + 1 * r.val = l.val; rw [e1, hl]; omega

/-- Window 3's block at point `t` of any integer array `[64, 20992]`: entry `(b, r)` is the array's `(b, 128 t + r)`. -/
theorem read_block3 (t : Fin cfg0.N) (A : S64x20992.Idx → BitVec 32) (b : Fin 64) (r : Fin 128) (l : Fin 20992)
    (hl : l.val = t.val * 128 + r.val) :
    ((cfg0.win 3).blk t).view.read (Elt Ideal) A (ix2 b r) = A (ix2 b l) := by
  obtain ⟨-, -, -, -, -, -, e0, e1, -⟩ := block_indices t
  show A (((cfg0.win 3).blk t).view.emb (ix2 b r)) = A (ix2 b l)
  refine congrArg A ?_
  funext a; apply Fin.ext
  match a with
  | ⟨0, _⟩ => show win0_3.index t (0 : Fin 2) * 64 + 1 * b.val = b.val; rw [e0]; omega
  | ⟨1, _⟩ => show win0_3.index t (1 : Fin 2) * 128 + 1 * r.val = l.val; rw [e1, hl]; omega

/-- WHAT A POINT STORES IS A BLOCK OF THE PACKED ARRAY, for any four arrays and any four blocks that are those arrays'
    columns `128 t …`: the stored block, read back through the output window, is the packed array's block `t`. -/
theorem stored_block (t : Fin cfg0.N) (A0 A1 A2 : S64x20992.Idx → EReal) (A3 : S64x20992.Idx → BitVec 32)
    (x0 x1 x2 : Vec Ideal S64x128 .f32) (x3 : Vec Ideal S64x128 .i32)
    (h0 : ∀ (b : Fin 64) (r : Fin 128) (l : Fin 20992), l.val = t.val * 128 + r.val → x0 (ix2 b r) = A0 (ix2 b l))
    (h1 : ∀ (b : Fin 64) (r : Fin 128) (l : Fin 20992), l.val = t.val * 128 + r.val → x1 (ix2 b r) = A1 (ix2 b l))
    (h2 : ∀ (b : Fin 64) (r : Fin 128) (l : Fin 20992), l.val = t.val * 128 + r.val → x2 (ix2 b r) = A2 (ix2 b l))
    (h3 : ∀ (b : Fin 64) (r : Fin 128) (l : Fin 20992), l.val = t.val * 128 + r.val → x3 (ix2 b r) = A3 (ix2 b l)) :
    (cfg0.win 4).cut (grid0.coords t) (k0_pay1 (F := Ideal) x0 x1 x2 x3)
      = ((cfg0.win 4).blk t).view.read (Elt Ideal) (Cert.Packed.packed A0 A1 A2 A3) := by
  funext j
  obtain ⟨b, r, k, rfl⟩ : ∃ (b : Fin 64) (r : Fin 128) (k : Fin 44), j = ix3 b r k := ⟨j 0, j 1, j 2, eq_ix3 j⟩
  have hN : cfg0.N = 164 := N_0
  have ht := t.isLt
  have hl : t.val * 128 + r.val < 20992 := by omega
  obtain ⟨-, -, -, -, -, -, -, -, e0, e1, e2⟩ := block_indices t
  have hE : ((cfg0.win 4).blk t).view.emb (ix3 b r k) = ix3 b (⟨t.val * 128 + r.val, hl⟩ : Fin 20992) k := by
    funext a; apply Fin.ext
    match a with
    | ⟨0, _⟩ => show win0_4.index t (0 : Fin 3) * 64 + 1 * b.val = b.val; rw [e0]; omega
    | ⟨1, _⟩ => show win0_4.index t (1 : Fin 3) * 128 + 1 * r.val = t.val * 128 + r.val; rw [e1]; omega
    | ⟨2, _⟩ => show win0_4.index t (2 : Fin 3) * 44 + 1 * k.val = k.val; rw [e2]; omega
  show k0_pay1 (F := Ideal) x0 x1 x2 x3 (ix3 b r k)
    = Cert.Packed.packed A0 A1 A2 A3 (((cfg0.win 4).blk t).view.emb (ix3 b r k))
  rw [hE, Cert.Packed.packed_apply]
  refine (Cert.KernelIdeal.Block.stored_apply x0 x1 x2 x3 b r k).trans ?_
  rw [h0 b r ⟨t.val * 128 + r.val, hl⟩ rfl, h1 b r ⟨t.val * 128 + r.val, hl⟩ rfl,
    h2 b r ⟨t.val * 128 + r.val, hl⟩ rfl, h3 b r ⟨t.val * 128 + r.val, hl⟩ rfl]

/-- An index of the result is in point `t`'s block iff each coordinate is in the block's range on its axis. -/
theorem mem_block (t : Fin cfg0.N) (i : S64x20992x44.Idx) :
    i ∈ ((cfg0.win 4).blk t).view.set ↔ ∀ a : Fin 3, win0_4.index t a * S64x128x44.size a ≤ (i a).val
      ∧ (i a).val < win0_4.index t a * S64x128x44.size a + S64x128x44.size a := by
  show i ∈ ((View.whole main_v19).slice (win0_4.rect t)).set ↔ _
  rw [View.set_slice_whole, Rect.mem_set_unit]
  exact Iff.rfl

/-- The blocks tile the result: position `l` along the packed axis is in the block of point `l / 128`. -/
theorem covered (i : S64x20992x44.Idx) :
    ∃ t : Fin cfg0.N, (cfg0.win 4).flush t = true ∧ i ∈ ((cfg0.win 4).blk t).view.set := by
  have hN : cfg0.N = 164 := N_0
  have h0 : (i 0).val < 64 := (i 0).isLt
  have h1 : (i 1).val < 20992 := (i 1).isLt
  have h2 : (i 2).val < 44 := (i 2).isLt
  have hq : (i 1).val / 128 < cfg0.N := by rw [hN]; omega
  refine ⟨⟨(i 1).val / 128, hq⟩, flush0_4 _, ?_⟩
  rw [mem_block]
  obtain ⟨-, -, -, -, -, -, -, -, e0, e1, e2⟩ := block_indices ⟨(i 1).val / 128, hq⟩
  have e1' : win0_4.index ⟨(i 1).val / 128, hq⟩ (1 : Fin 3) = (i 1).val / 128 := e1
  intro a
  match a with
  | ⟨0, _⟩ =>
    show win0_4.index ⟨(i 1).val / 128, hq⟩ (0 : Fin 3) * 64 ≤ (i 0).val
      ∧ (i 0).val < win0_4.index ⟨(i 1).val / 128, hq⟩ (0 : Fin 3) * 64 + 64
    rw [e0]; omega
  | ⟨1, _⟩ =>
    show win0_4.index ⟨(i 1).val / 128, hq⟩ (1 : Fin 3) * 128 ≤ (i 1).val
      ∧ (i 1).val < win0_4.index ⟨(i 1).val / 128, hq⟩ (1 : Fin 3) * 128 + 128
    rw [e1']; omega
  | ⟨2, _⟩ =>
    show win0_4.index ⟨(i 1).val / 128, hq⟩ (2 : Fin 3) * 44 ≤ (i 2).val
      ∧ (i 2).val < win0_4.index ⟨(i 1).val / 128, hq⟩ (2 : Fin 3) * 44 + 44
    rw [e2]; omega

/-! ## The kernel's run -/

variable (m : (ℓ : Loc nD τ sig) → Buf (Elt Ideal) ℓ) (ρ : Dev nD → PrngReg)

/-- The packed array of the four input arrays as the region finds them. -/
abbrev result (c : Dev nD) : S64x20992x44.Idx → EReal :=
  Cert.Packed.packed (V m c (Pipeline.arrRef spec0 0)) (V m c (Pipeline.arrRef spec0 1))
    (V m c (Pipeline.arrRef spec0 2)) (V m c (Pipeline.arrRef spec0 3))

/-- WHAT POINT `t` WRITES BACK is block `t` of the packed array. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero3]
  simp only [View.ld_unit_zero (S := S64x128) zero2]
  exact stored_block t (V m c (Pipeline.arrRef spec0 0)) (V m c (Pipeline.arrRef spec0 1))
    (V m c (Pipeline.arrRef spec0 2)) (V m c (Pipeline.arrRef spec0 3))
    (iblk m c 0 t) (iblk m c 1 t) (iblk m c 2 t) (iblk m c 3 t)
    (fun b r l hl => read_block0 t _ b r l hl) (fun b r l hl => read_block1 t _ b r l hl)
    (fun b r l hl => read_block2 t _ b r l hl) (fun b r l hl => read_block3 t _ b r l hl)

/-- THE RESULT ARRAY after the run is the packed array of the four input arrays as the region finds them. -/
theorem final (c : Dev nD) : (dats m 0 c).arrAt 4 cfg0.N = result m c :=
  (dats m 0 c).arrAt_eq_of_cover 4 (result m c) (fun t _ => flushed_eq m c t) covered

/-- The kernel's run: every weakly fair execution ends with the result array at the packed array and the arguments as
    launched. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.LibTypedRefs.lean ====
/-
  A typed tensor reference moves a value between the value's own type and the type its buffer is declared with; the two
  moves at one buffer undo each other, whatever the proofs the two typed references carry.
-/
import Idealize.ShloMosaic.Lib.StableHlo

noncomputable section

namespace Cert.LibTypedRefs

open Idealize.ShloMosaic Idealize.ShloMosaic.StableHlo

/-- Reading back through a typed reference what was written through a typed reference to the same buffer gives the value
    written. -/
theorem ofBuf_toBuf {sig : RefSig} {Val : EltTy → Type} {T : BufTy} (r : Ref sig .tc) (h h' : r.ty = T)
    (a a' : r.space ≠ .host) (b b' : r.isScoped = false) (u : T.Contents Val) :
    (TRef.of r h a b).ofBuf ((TRef.of r h' a' b').toBuf u) = u := by
  subst h; rfl

end Cert.LibTypedRefs

end
-- ==== Proof.KernelPrepared.lean ====
/-
  The two programs prepare the same four arrays.

  Before the kernel's region runs, its program computes on the host — from the three arguments — the times, values,
  validity flags and channel words after a stable partition of each row (observed entries first): a reshape of each
  argument to `[64, 20992]`, a stable sort of `1 - mask` carrying the positions along, four gathers at the sorted
  positions, and three products with the gathered mask. The reference computes the same four arrays by the same
  operations in the same order. Both are therefore ONE function of the arguments: the reference's stages
  (`val_main_v14`, `val_main_v16`, `val_main_v12`, `val_main_v18` of its read module) applied to the kernel's
  arguments ARE what the kernel's region finds in its four input arrays — operation for operation, the sort, the
  gathers and the mask reductions compared by their arguments only and never opened.
-/
import proofs.«117387_j68753836474773_2_alg».proof.Proof.Gen.KernelIdeal.Frame
import proofs.«117387_j68753836474773_2_alg».proof.Proof.RefRead
import proofs.«117387_j68753836474773_2_alg».proof.Proof.LibTypedRefs
import Idealize.ShloMosaic.Lib.StableHlo.Run
import Idealize.ShloMosaic.PureOps.Ideal

noncomputable section

namespace Cert.KernelIdeal.Prepared

open Cert.KernelIdeal Cert.KernelIdeal.Gen Idealize.ShloMosaic Idealize.ShloMosaic.TcCoe Idealize.SL.Sem Idealize.ShloMosaic.StableHlo

attribute [local irreducible] Idealize.ShloMosaic.Host.sort2 Idealize.ShloMosaic.Host.gather Idealize.ShloMosaic.Host.reduce

variable (m : (ℓ : Loc nD τ sig) → Buf (Elt Ideal) ℓ)

set_option maxRecDepth 16384 in
set_option maxHeartbeats 46800000 in
/-- The times array the region finds is the reference's times stage of the arguments. -/
theorem times_eq (c : Dev nD) :
    (V m c main_v14 : S64x20992.Idx → EReal) = Cert.ReferenceIdeal.ReadP.val_main_v14 (F := Ideal) (m ((c : Thread nD τ).loc main_arg0)) (m ((c : Thread nD τ).loc main_arg2)) := by
  dsimp only [V]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results_simp
  simp only [Cert.LibTypedRefs.ofBuf_toBuf]
  rfl

set_option maxRecDepth 16384 in
set_option maxHeartbeats 46800000 in
/-- The values array the region finds is the reference's values stage of the arguments. -/
theorem values_eq (c : Dev nD) :
    (V m c main_v16 : S64x20992.Idx → EReal) = Cert.ReferenceIdeal.ReadP.val_main_v16 (F := Ideal) (m ((c : Thread nD τ).loc main_arg1)) (m ((c : Thread nD τ).loc main_arg2)) := by
  dsimp only [V]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results_simp
  simp only [Cert.LibTypedRefs.ofBuf_toBuf]
  rfl

set_option maxRecDepth 16384 in
set_option maxHeartbeats 46800000 in
/-- The validity flags array the region finds is the reference's flags stage of the arguments. -/
theorem flags_eq (c : Dev nD) :
    (V m c main_v12 : S64x20992.Idx → EReal) = Cert.ReferenceIdeal.ReadP.val_main_v12 (F := Ideal) (m ((c : Thread nD τ).loc main_arg2)) := by
  dsimp only [V]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results_simp
  simp only [Cert.LibTypedRefs.ofBuf_toBuf]
  rfl

set_option maxRecDepth 16384 in
set_option maxHeartbeats 46800000 in
/-- The channel words array the region finds is the reference's channel stage of the arguments. -/
theorem channels_eq (c : Dev nD) :
    (V m c main_v18 : S64x20992.Idx → BitVec 32) = Cert.ReferenceIdeal.ReadP.val_main_v18 (F := Ideal) (m ((c : Thread nD τ).loc main_arg2)) := by
  dsimp only [V]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results_simp
  simp only [Cert.LibTypedRefs.ofBuf_toBuf]
  rfl

end Cert.KernelIdeal.Prepared

end
-- ==== Proof.LibAfterAppend.lean ====
/-
  The contents after a line of host operations that is written as two lines end to end.

  `after l V` is the device's buffer contents after the operations `l`, in order, from contents `V`. Running
  `l₁ ++ l₂` is running `l₁` and then `l₂` from what `l₁` left: this lets a long line be read in two steps —
  its last operation alone, over the contents the operations before it leave, which stay one folded term.
-/
import Idealize.ShloMosaic.Lib.StableHlo.Run

namespace Cert.Lib

open Idealize.ShloMosaic Idealize.ShloMosaic.StableHlo

variable {τ : Topo} {sig : RefSig} {Val : EltTy → Type}

/-- The contents after two lines end to end are the contents after the second line from what the first leaves. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.Lib
-- ==== Proof.LibNary3.lean ====
/-
  A host operation of three operands, read with each operand's contents at its own reference.

  The general read-back of an n-ary operation leaves its operands under a binder, `fun k => F ↑(![x, a, b] k)`, where
  no further result can be rewritten; for a literal family of three references the operands are spelt out here one by
  one (the three-operand companion of the library's four-operand form), together with the read-back tactic that tries
  this form first.
-/
import Idealize.ShloMosaic.Lib.StableHlo.Run

noncomputable section

namespace Cert.Lib

open Idealize.ShloMosaic Idealize.ShloMosaic.StableHlo

variable {τ : Topo} {sig : RefSig} {Val : EltTy → Type}
variable {x a b y : Ref sig .tc}

/-- A three-operand operation's result at its own reference: the function of the three operands' contents, each at its
    own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, spelt for a rewriting pass (the result reference not indexed, as the library's own forms are). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Lib

/-- The contents of one buffer after a line of host operations, as the operations' functions of the contents before
    it: the library's read-back, with a three-operand operation read operand by operand. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.quaternary_result]
               | rw [Idealize.ShloMosaic.StableHlo.reshape_result] | rw [Cert.Lib.nary3_result]
               | rw [Idealize.ShloMosaic.StableHlo.nary_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.nary_result_ne]; rotate_left; decide))))

/-- The same read-back as ONE rewriting pass, each shared intermediate result visited once: for a line whose
    intermediate results have several consumers each. -/
macro "after_results3_simp" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Cert.Lib.nary3_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne']))

end
-- ==== Proof.RefValue.lean ====
/-
  The reference's result is the packed array of its own four intermediate arrays.

  The reference ends with: the indicators of the channel words (a comparison of the channel word, spread along a new
  last axis of extent 41, with the channel numbers `0 … 40` running along it, read as an unsigned bit), the times
  stood up as a column `[64, 20992, 1]` and joined with the indicators into `[64, 20992, 42]`, and that joined with
  the values' column and the validity flags' column into `[64, 20992, 44]`. Entry `(b, l, k)` falls in the first
  joined piece for `k ≤ 41` (and there in the times' column for `k = 0`, in the indicators at `k - 1` otherwise),
  in the values' column for `k = 42` and in the flags' column for `k = 43`: position `k` of the packed row
  (PackedRow.lean) of the four arrays' entries at `(b, l)`. The four arrays — times, values, flags, channel words
  after the stable partition — are left as they are: nothing here opens them.
-/
import proofs.«117387_j68753836474773_2_alg».proof.Proof.RefRead
import proofs.«117387_j68753836474773_2_alg».proof.Proof.PackedRow
import proofs.«117387_j68753836474773_2_alg».proof.Proof.LibLastAxisJoin
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx

theorem idx_v20 (b : Fin 64) (l : Fin 20992) (u : Fin 1) : idx_main_v20 (ix3 b l u) = ix2 b l :=
  funext fun a => match a with | ⟨0, _⟩ => rfl | ⟨1, _⟩ => rfl
theorem idx_v22 (b : Fin 64) (l : Fin 20992) (u : Fin 1) : idx_main_v22 (ix3 b l u) = ix2 b l :=
  funext fun a => match a with | ⟨0, _⟩ => rfl | ⟨1, _⟩ => rfl
theorem idx_v23 (b : Fin 64) (l : Fin 20992) (u : Fin 1) : idx_main_v23 (ix3 b l u) = ix2 b l :=
  funext fun a => match a with | ⟨0, _⟩ => rfl | ⟨1, _⟩ => rfl
theorem idx_hot (b : Fin 64) (l : Fin 20992) (k : Fin 41) : idx_main_call5_v0 (idx_main_call5_v2 (ix3 b l k)) = ix2 b l :=
  funext fun a => match a with | ⟨0, _⟩ => rfl | ⟨1, _⟩ => rfl

/-- The times' column at `(b, l, 0)` is the times array at `(b, l)`. -/
theorem times_column (x0 : (⟨S64x512, .f32⟩ : BufTy).Contents (Elt Ideal)) (x2 : (⟨S64x512x41, .i32⟩ : BufTy).Contents (Elt Ideal)) (b : Fin 64) (l : Fin 20992) (u : Fin 1) :
    val_main_v20 (F := Ideal) x0 x2 (ix3 b l u) = val_main_v14 (F := Ideal) x0 x2 (ix2 b l) :=
  (val_main_v20_apply x0 x2 _).trans (congrArg _ (idx_v20 b l u))

/-- The values' column at `(b, l, 0)` is the values array at `(b, l)`. -/
theorem values_column (x1 : (⟨S64x512x41, .f32⟩ : BufTy).Contents (Elt Ideal)) (x2 : (⟨S64x512x41, .i32⟩ : BufTy).Contents (Elt Ideal)) (b : Fin 64) (l : Fin 20992) (u : Fin 1) :
    val_main_v22 (F := Ideal) x1 x2 (ix3 b l u) = val_main_v16 (F := Ideal) x1 x2 (ix2 b l) :=
  (val_main_v22_apply x1 x2 _).trans (congrArg _ (idx_v22 b l u))

/-- The flags' column at `(b, l, 0)` is the flags array at `(b, l)`. -/
theorem flags_column (x2 : (⟨S64x512x41, .i32⟩ : BufTy).Contents (Elt Ideal)) (b : Fin 64) (l : Fin 20992) (u : Fin 1) :
    val_main_v23 (F := Ideal) x2 (ix3 b l u) = val_main_v12 (F := Ideal) x2 (ix2 b l) :=
  (val_main_v23_apply x2 _).trans (congrArg _ (idx_v23 b l u))

/-- The indicators at `(b, l, k)`: the channel word at `(b, l)` compared with the channel number `k`. -/
theorem indicators (x2 : (⟨S64x512x41, .i32⟩ : BufTy).Contents (Elt Ideal)) (b : Fin 64) (l : Fin 20992) (k : Fin 41) :
    val_main_v19 (F := Ideal) x2 (ix3 b l k) = Cert.Packed.hot (val_main_v18 (F := Ideal) x2 (ix2 b l)) k.val := by
  rw [val_main_v19_apply, val_main_call5_v4_apply, val_main_call5_v2_apply, val_main_call5_v0_apply,
    val_main_call5_v3_apply, val_main_call5_v1_apply, idx_hot]
  exact Cert.Packed.hot_unsigned _ _

/-- THE REFERENCE'S RESULT AT AN INDEX: position `k` of the packed row of its four arrays at `(b, l)`. -/
theorem result_apply (x0 : (⟨S64x512, .f32⟩ : BufTy).Contents (Elt Ideal)) (x1 : (⟨S64x512x41, .f32⟩ : BufTy).Contents (Elt Ideal)) (x2 : (⟨S64x512x41, .i32⟩ : BufTy).Contents (Elt Ideal)) (b : Fin 64) (l : Fin 20992) (k : Fin 44) :
    val_main_v24 (F := Ideal) x0 x1 x2 (ix3 b l k)
      = Cert.Packed.entry (val_main_v14 (F := Ideal) x0 x2 (ix2 b l)) (val_main_v16 (F := Ideal) x1 x2 (ix2 b l))
          (val_main_v12 (F := Ideal) x2 (ix2 b l)) (val_main_v18 (F := Ideal) x2 (ix2 b l)) k := by
  unfold val_main_v24 Cert.Packed.entry
  by_cases h0 : k.val = 0
  · rw [if_pos h0]
    have hk : k.val < 42 := by omega
    refine (concatenate_last3_apply _ _ b l k 0 (by show (0 : ℕ) < 3; decide) _ rfl 0 rfl (⟨k.val, hk⟩ : Fin 42)
      (by show 0 + k.val = k.val; omega)).trans ?_
    unfold val_main_v21
    exact (concatenate_last3_apply _ _ b l ⟨k.val, hk⟩ 0 (by show (0 : ℕ) < 2; decide) _ rfl 0 rfl (0 : Fin 1)
      (by show 0 + 0 = k.val; omega)).trans (times_column x0 x2 b l 0)
  · rw [if_neg h0]
    by_cases h1 : k.val ≤ 41
    · rw [if_pos h1]
      have hk : k.val < 42 := by omega
      have hk' : k.val - 1 < 41 := by omega
      refine (concatenate_last3_apply _ _ b l k 0 (by show (0 : ℕ) < 3; decide) _ rfl 0 rfl (⟨k.val, hk⟩ : Fin 42)
        (by show 0 + k.val = k.val; omega)).trans ?_
      unfold val_main_v21
      exact (concatenate_last3_apply _ _ b l ⟨k.val, hk⟩ 1 (by show (1 : ℕ) < 2; decide) _ rfl 1 rfl (⟨k.val - 1, hk'⟩ : Fin 41)
        (by show 1 + (k.val - 1) = k.val; omega)).trans (indicators x2 b l ⟨k.val - 1, hk'⟩)
    · rw [if_neg h1]
      by_cases h2 : k.val = 42
      · rw [if_pos h2]
        exact (concatenate_last3_apply _ _ b l k 1 (by show (1 : ℕ) < 3; decide) _ rfl 42 rfl (0 : Fin 1)
          (by show 42 + 0 = k.val; omega)).trans (values_column x1 x2 b l 0)
      · rw [if_neg h2]
        have hk := k.isLt
        exact (concatenate_last3_apply _ _ b l k 2 (by show (2 : ℕ) < 3; decide) _ rfl 43 rfl (0 : Fin 1)
          (by show 43 + 0 = k.val; omega)).trans (flags_column x2 b l 0)

/-- THE REFERENCE'S RESULT is the packed array of its times, values, flags and channel words. -/
theorem result_eq (x0 : (⟨S64x512, .f32⟩ : BufTy).Contents (Elt Ideal)) (x1 : (⟨S64x512x41, .f32⟩ : BufTy).Contents (Elt Ideal)) (x2 : (⟨S64x512x41, .i32⟩ : BufTy).Contents (Elt Ideal)) :
    (val_main_v24 (F := Ideal) x0 x1 x2 : S64x20992x44.Idx → EReal)
      = Cert.Packed.packed (val_main_v14 (F := Ideal) x0 x2) (val_main_v16 (F := Ideal) x1 x2)
          (val_main_v12 (F := Ideal) x2) (val_main_v18 (F := Ideal) x2) := by
  funext i
  obtain ⟨b, l, k, rfl⟩ : ∃ (b : Fin 64) (l : Fin 20992) (k : Fin 44), i = ix3 b l k := ⟨i 0, i 1, i 2, eq_ix3 i⟩
  exact (result_apply x0 x1 x2 b l k).trans (Cert.Packed.packed_apply _ _ _ _ b l k).symm

end Cert.ReferenceIdeal.RefValue

end
-- ==== Proof.lean ====
/-
  The certificate of the packing kernel against its reference, over the extended reals.

  Both programs take times `[64, 512]`, values `[64, 512, 41]` and an integer mask `[64, 512, 41]`; both flatten each
  row to length `20992 = 512 · 41`, move the observed entries of each row to the front by a stable sort of
  `1 - mask`, and multiply the gathered times, values and channel numbers by the gathered mask. From these four arrays
  `[64, 20992]` — times `τ`, values `u`, validity flags `v`, channel words `c` — each builds the result
  `[64, 20992, 44]`, whose row `(b, l)` is `[τ | 1{c = 0} … 1{c = 40} | u | v]` (PackedRow.lean):

    * the kernel in one tiled region of 164 grid points, each packing 128 positions of all 64 rows
      (BlockValue.lean: what a point stores; KernelArray.lean: the 164 stored blocks are the whole packed array);
    * the reference by a comparison with the channel numbers and two joins along the last axis
      (RefValue.lean: its last stage is the packed array of its own four arrays; RefRun.lean, RefRead.lean: its run).

  The four arrays are the same functions of the arguments in both programs, operation for operation
  (KernelPrepared.lean), so the two results are the packed array of the same four arrays. No law of arithmetic is
  involved — the float operations are the same on both sides and only the layout differs —, so the claim holds for
  all extended-real inputs and the precondition (finite inputs) is never opened. The ideal pass rewrote nothing:
  `preserves` is `True`.
-/
import proofs.«117387_j68753836474773_2_alg».proof.Defs
import proofs.«117387_j68753836474773_2_alg».proof.Proof.Gen.Kernel
import proofs.«117387_j68753836474773_2_alg».proof.Proof.Gen.Kernel.Skeleton
import proofs.«117387_j68753836474773_2_alg».proof.Proof.Gen.Kernel.Launch
import proofs.«117387_j68753836474773_2_alg».proof.Proof.Gen.Kernel.Points
import proofs.«117387_j68753836474773_2_alg».proof.Proof.Gen.Kernel.Frame
import proofs.«117387_j68753836474773_2_alg».proof.Proof.Gen.KernelIdeal
import proofs.«117387_j68753836474773_2_alg».proof.Proof.Gen.KernelIdeal.Skeleton
import proofs.«117387_j68753836474773_2_alg».proof.Proof.Gen.KernelIdeal.Launch
import proofs.«117387_j68753836474773_2_alg».proof.Proof.Gen.KernelIdeal.Points
import proofs.«117387_j68753836474773_2_alg».proof.Proof.Gen.KernelIdeal.Frame
import proofs.«117387_j68753836474773_2_alg».proof.Proof.Gen.KernelIdeal.Value
import proofs.«117387_j68753836474773_2_alg».proof.Proof.Gen.ReferenceIdeal
import proofs.«117387_j68753836474773_2_alg».proof.Proof.Gen.Pre_finite_inputs
import proofs.«117387_j68753836474773_2_alg».proof.Proof.KernelArray
import proofs.«117387_j68753836474773_2_alg».proof.Proof.KernelPrepared
import proofs.«117387_j68753836474773_2_alg».proof.Proof.RefRun
import proofs.«117387_j68753836474773_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- So does the idealized reference: its run with the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- At the extended reals both programs end with the packed array of the same four arrays: the kernel's result array
    is the packed array of the four arrays its region finds, the reference's result is the packed array of its four
    stages of the arguments, and those are the same arrays. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2, Cert.ReferenceIdeal.RefValue.result_eq]
  have e0 : (Cert.KernelIdeal.Gen.V m c (Pipeline.arrRef Cert.KernelIdeal.spec0 0) : Cert.KernelIdeal.S64x20992.Idx → EReal) = _ :=
    Cert.KernelIdeal.Prepared.times_eq m c
  have e1 : (Cert.KernelIdeal.Gen.V m c (Pipeline.arrRef Cert.KernelIdeal.spec0 1) : Cert.KernelIdeal.S64x20992.Idx → EReal) = _ :=
    Cert.KernelIdeal.Prepared.values_eq m c
  have e2 : (Cert.KernelIdeal.Gen.V m c (Pipeline.arrRef Cert.KernelIdeal.spec0 2) : Cert.KernelIdeal.S64x20992.Idx → EReal) = _ :=
    Cert.KernelIdeal.Prepared.flags_eq m c
  have e3 : (Cert.KernelIdeal.Gen.V m c (Pipeline.arrRef Cert.KernelIdeal.spec0 3) : Cert.KernelIdeal.S64x20992.Idx → BitVec 32) = _ :=
    Cert.KernelIdeal.Prepared.channels_eq m c
  show _ = Cert.Packed.packed (Cert.KernelIdeal.Gen.V m c (Pipeline.arrRef Cert.KernelIdeal.spec0 0))
    (Cert.KernelIdeal.Gen.V m c (Pipeline.arrRef Cert.KernelIdeal.spec0 1))
    (Cert.KernelIdeal.Gen.V m c (Pipeline.arrRef Cert.KernelIdeal.spec0 2))
    (Cert.KernelIdeal.Gen.V m c (Pipeline.arrRef Cert.KernelIdeal.spec0 3))
  rw [e0, e1, e2, e3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
